-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000x3 : Shape := ⟨2, ![4000000, 3]⟩
abbrev S4000000x4 : Shape := ⟨2, ![4000000, 4]⟩
abbrev S_ : Shape := ⟨0, ![]⟩

class Facts : Prop where
  bcast_S_S4000000x3 : S_.BroadcastsInDim S4000000x3 (![] : Fin 0 → Fin S4000000x3.rank)
  reducesTo_S4000000x3_S_d0_1 : S4000000x3.ReducesTo [0, 1] S_
  h_S_ : 0 < S_.numel
  bcast_S_S4000000x4 : S_.BroadcastsInDim S4000000x4 (![] : Fin 0 → Fin S4000000x4.rank)
  reducesTo_S4000000x4_S_d0_1 : S4000000x4.ReducesTo [0, 1] S_

variable [Facts]

def fn {F : FTy → Type} [FloatOps F] (main_arg0 : FVec F S4000000x3 .f32) (main_arg1 : FVec F S4000000x4 .f32) : IVec S_ 1 :=
  let main_v0 : FVec F S4000000x3 .f32 := Host.absf main_arg0
  let main_cst : FVec F S_ .f32 := constant S_ .f32 0x7F800000#32
  let main_v1 : FVec F S4000000x3 .f32 := broadcastInDim S4000000x3 ![] bcast_S_S4000000x3 main_cst
  let main_v2 : IVec S4000000x3 1 := cmpf .olt main_v0 main_v1
  let main_c : IVec S_ 1 := constantI S_ 1 1#1
  let main_v3 : IVec S_ 1 := (fun x v => Host.reduce IntOp.andi x v reducesTo_S4000000x3_S_d0_1 h_S_) main_v2 main_c
  let main_v4 : FVec F S4000000x4 .f32 := Host.absf main_arg1
  let main_cst_0 : FVec F S_ .f32 := constant S_ .f32 0x7F800000#32
  let main_v5 : FVec F S4000000x4 .f32 := broadcastInDim S4000000x4 ![] bcast_S_S4000000x4 main_cst_0
  let main_v6 : IVec S4000000x4 1 := cmpf .olt main_v4 main_v5
  let main_c_1 : IVec S_ 1 := constantI S_ 1 1#1
  let main_v7 : IVec S_ 1 := (fun x v => Host.reduce IntOp.andi x v reducesTo_S4000000x4_S_d0_1 h_S_) main_v6 main_c_1
  let main_v8 : IVec S_ 1 := andi main_v3 main_v7
  main_v8
-- ==== Kernel.lean ====
abbrev S4000000x3 : Shape := ⟨2, ![4000000, 3]⟩
abbrev S4000000x4 : Shape := ⟨2, ![4000000, 4]⟩
abbrev S3x4000000 : Shape := ⟨2, ![3, 4000000]⟩
abbrev S4x4000000 : Shape := ⟨2, ![4, 4000000]⟩
abbrev S6x4000000 : Shape := ⟨2, ![6, 4000000]⟩
abbrev S3x32000 : Shape := ⟨2, ![3, 32000]⟩
abbrev S4x32000 : Shape := ⟨2, ![4, 32000]⟩
abbrev S6x32000 : Shape := ⟨2, ![6, 32000]⟩
abbrev S32000 : Shape := ⟨1, ![32000]⟩
abbrev S1x32000 : Shape := ⟨2, ![1, 32000]⟩
abbrev S4000000x6 : Shape := ⟨2, ![4000000, 6]⟩

abbrev nBuf : Space → Nat
  | .hbm => 6
  | .vmem => 6
  | .smem => 0
  | _ => 0

abbrev bufTy : (tb : Table) → Fin (tcTables nBuf tb) → BufTy
  | .hbm, ⟨0, _⟩ => ⟨S4000000x3, .f32⟩
  | .hbm, ⟨1, _⟩ => ⟨S4000000x4, .f32⟩
  | .hbm, ⟨2, _⟩ => ⟨S3x4000000, .f32⟩
  | .hbm, ⟨3, _⟩ => ⟨S4x4000000, .f32⟩
  | .hbm, ⟨4, _⟩ => ⟨S6x4000000, .f32⟩
  | .hbm, ⟨5, _⟩ => ⟨S4000000x6, .f32⟩
  | .local _ .vmem, ⟨0, _⟩ => ⟨S3x32000, .f32⟩
  | .local _ .vmem, ⟨1, _⟩ => ⟨S3x32000, .f32⟩
  | .local _ .vmem, ⟨2, _⟩ => ⟨S4x32000, .f32⟩
  | .local _ .vmem, ⟨3, _⟩ => ⟨S4x32000, .f32⟩
  | .local _ .vmem, ⟨4, _⟩ => ⟨S6x32000, .f32⟩
  | .local _ .vmem, ⟨5, _⟩ => ⟨S6x32000, .f32⟩
  | _, _ => ⟨S4000000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S3x32000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x32000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6x32000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S4000000x3_S3x4000000_1_0 : S4000000x3.Transposes [1, 0] S3x4000000
  transposes_S4000000x4_S4x4000000_1_0 : S4000000x4.Transposes [1, 0] S4x4000000
  inb_S3x32000_S3x32000_0_0 : ∀ a, (![0, 0] : Fin 2 → Nat) a + S3x32000.size a ≤ S3x32000.size a
  h_S3x32000 : 0 < S3x32000.numel
  shapeCasts_S3x32000_S3x32000 : S3x32000.ShapeCasts S3x32000
  inb_S4x32000_S4x32000_0_0 : ∀ a, (![0, 0] : Fin 2 → Nat) a + S4x32000.size a ≤ S4x32000.size a
  h_S4x32000 : 0 < S4x32000.numel
  shapeCasts_S4x32000_S4x32000 : S4x32000.ShapeCasts S4x32000
  reduces_S4x32000_S32000 : S4x32000.Reduces [0] S32000
  shapeCasts_S32000_S1x32000 : S32000.ShapeCasts S1x32000
  broadcasts_S1x32000_S4x32000 : S1x32000.Broadcasts S4x32000
  slices_S4x32000_o0_0_S1x32000 : S4x32000.Slices ![0, 0] S1x32000
  slices_S4x32000_o1_0_S1x32000 : S4x32000.Slices ![1, 0] S1x32000
  slices_S4x32000_o2_0_S1x32000 : S4x32000.Slices ![2, 0] S1x32000
  slices_S4x32000_o3_0_S1x32000 : S4x32000.Slices ![3, 0] S1x32000
  slices_S3x32000_o0_0_S1x32000 : S3x32000.Slices ![0, 0] S1x32000
  slices_S3x32000_o1_0_S1x32000 : S3x32000.Slices ![1, 0] S1x32000
  slices_S3x32000_o2_0_S1x32000 : S3x32000.Slices ![2, 0] S1x32000
  inb_S6x32000_S1x32000_0_0 : ∀ a, (![0, 0] : Fin 2 → Nat) a + S1x32000.size a ≤ S6x32000.size a
  h_S1x32000 : 0 < S1x32000.numel
  inb_S6x32000_S1x32000_1_0 : ∀ a, (![1, 0] : Fin 2 → Nat) a + S1x32000.size a ≤ S6x32000.size a
  inb_S6x32000_S1x32000_2_0 : ∀ a, (![2, 0] : Fin 2 → Nat) a + S1x32000.size a ≤ S6x32000.size a
  inb_S6x32000_S1x32000_3_0 : ∀ a, (![3, 0] : Fin 2 → Nat) a + S1x32000.size a ≤ S6x32000.size a
  inb_S6x32000_S1x32000_4_0 : ∀ a, (![4, 0] : Fin 2 → Nat) a + S1x32000.size a ≤ S6x32000.size a
  inb_S6x32000_S1x32000_5_0 : ∀ a, (![5, 0] : Fin 2 → Nat) a + S1x32000.size a ≤ S6x32000.size a
  transposes_S6x4000000_S4000000x6_1_0 : S6x4000000.Transposes [1, 0] S4000000x6
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x32000.size a ≤ S3x4000000.size a
  hwx0_0 : ∀ i : grid0.Coords, EltTy.bits .f32 = 32 ∨ (Rect.block (s := S3x4000000) S3x32000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x32000.size a ≤ S4x4000000.size a
  hwx0_1 : ∀ i : grid0.Coords, EltTy.bits .f32 = 32 ∨ (Rect.block (s := S4x4000000) S4x32000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6x32000.size a ≤ S6x4000000.size a
  hwx0_2 : ∀ i : grid0.Coords, EltTy.bits .f32 = 32 ∨ (Rect.block (s := S6x4000000) S6x32000.size (cc0_transform_2 i) (hinb0_2 i)).WholeWords (EltTy.packing .f32)

variable [Facts₀]

abbrev win0_0 : Pipeline.Window sig grid0 :=
  Pipeline.Window.ofSpec (Memref.whole main_v0) S3x32000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4x32000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S6x32000.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4000000x3 : Shape := ⟨2, ![4000000, 3]⟩
abbrev S4000000x4 : Shape := ⟨2, ![4000000, 4]⟩
abbrev S_ : Shape := ⟨0, ![]⟩
abbrev S4000000 : Shape := ⟨1, ![4000000]⟩
abbrev S4000000x1 : Shape := ⟨2, ![4000000, 1]⟩
abbrev S4000000x9 : Shape := ⟨2, ![4000000, 9]⟩
abbrev S4000000x3x3 : Shape := ⟨3, ![4000000, 3, 3]⟩
abbrev S4000000x1x3 : Shape := ⟨3, ![4000000, 1, 3]⟩
abbrev S4000000x1x1 : Shape := ⟨3, ![4000000, 1, 1]⟩
abbrev S4000000x6 : Shape := ⟨2, ![4000000, 6]⟩

abbrev nBuf : Space → Nat
  | .hbm => 131
  | .vmem => 0
  | .smem => 0
  | _ => 0

abbrev hbmTy0_0 (i : Nat) : BufTy := match i % 128 with
  | 0 => ⟨S4000000x3, .f32⟩
  | 1 => ⟨S4000000x4, .f32⟩
  | 2 => ⟨S4000000x3, .f32⟩
  | 3 => ⟨S4000000x3, .f32⟩
  | 4 => ⟨S_, .f32⟩
  | 5 => ⟨S4000000x3, .f32⟩
  | 6 => ⟨S4000000x3, .f32⟩
  | 7 => ⟨S_, .f32⟩
  | 8 => ⟨S4000000x3, .f32⟩
  | 9 => ⟨S4000000x3, .f32⟩
  | 10 => ⟨S_, .f32⟩
  | 11 => ⟨S4000000x3, .f32⟩
  | 12 => ⟨S4000000x3, .f32⟩
  | 13 => ⟨S_, .f32⟩
  | 14 => ⟨S4000000x3, .f32⟩
  | 15 => ⟨S4000000x3, .f32⟩
  | 16 => ⟨S_, .f32⟩
  | 17 => ⟨S4000000x3, .f32⟩
  | 18 => ⟨S4000000x3, .f32⟩
  | 19 => ⟨S4000000x4, .f32⟩
  | 20 => ⟨S_, .f32⟩
  | 21 => ⟨S4000000, .f32⟩
  | 22 => ⟨S4000000x1, .f32⟩
  | 23 => ⟨S4000000x1, .f32⟩
  | 24 => ⟨S4000000x4, .f32⟩
  | 25 => ⟨S4000000x4, .f32⟩
  | 26 => ⟨S4000000x1, .f32⟩
  | 27 => ⟨S4000000, .f32⟩
  | 28 => ⟨S4000000x1, .f32⟩
  | 29 => ⟨S4000000, .f32⟩
  | 30 => ⟨S4000000x1, .f32⟩
  | 31 => ⟨S4000000, .f32⟩
  | 32 => ⟨S4000000x1, .f32⟩
  | 33 => ⟨S4000000, .f32⟩
  | 34 => ⟨S4000000, .f32⟩
  | 35 => ⟨S4000000, .f32⟩
  | 36 => ⟨S4000000, .f32⟩
  | 37 => ⟨S_, .f32⟩
  | 38 => ⟨S4000000, .f32⟩
  | 39 => ⟨S4000000, .f32⟩
  | 40 => ⟨S_, .f32⟩
  | 41 => ⟨S4000000, .f32⟩
  | 42 => ⟨S4000000, .f32⟩
  | 43 => ⟨S4000000, .f32⟩
  | 44 => ⟨S4000000, .f32⟩
  | 45 => ⟨S4000000, .f32⟩
  | 46 => ⟨S_, .f32⟩
  | 47 => ⟨S4000000, .f32⟩
  | 48 => ⟨S4000000, .f32⟩
  | 49 => ⟨S4000000, .f32⟩
  | 50 => ⟨S4000000, .f32⟩
  | 51 => ⟨S4000000, .f32⟩
  | 52 => ⟨S_, .f32⟩
  | 53 => ⟨S4000000, .f32⟩
  | 54 => ⟨S4000000, .f32⟩
  | 55 => ⟨S4000000, .f32⟩
  | 56 => ⟨S4000000, .f32⟩
  | 57 => ⟨S4000000, .f32⟩
  | 58 => ⟨S_, .f32⟩
  | 59 => ⟨S4000000, .f32⟩
  | 60 => ⟨S4000000, .f32⟩
  | 61 => ⟨S4000000, .f32⟩
  | 62 => ⟨S4000000, .f32⟩
  | 63 => ⟨S4000000, .f32⟩
  | 64 => ⟨S_, .f32⟩
  | 65 => ⟨S4000000, .f32⟩
  | 66 => ⟨S4000000, .f32⟩
  | 67 => ⟨S_, .f32⟩
  | 68 => ⟨S4000000, .f32⟩
  | 69 => ⟨S4000000, .f32⟩
  | 70 => ⟨S4000000, .f32⟩
  | 71 => ⟨S4000000, .f32⟩
  | 72 => ⟨S4000000, .f32⟩
  | 73 => ⟨S_, .f32⟩
  | 74 => ⟨S4000000, .f32⟩
  | 75 => ⟨S4000000, .f32⟩
  | 76 => ⟨S4000000, .f32⟩
  | 77 => ⟨S4000000, .f32⟩
  | 78 => ⟨S4000000, .f32⟩
  | 79 => ⟨S_, .f32⟩
  | 80 => ⟨S4000000, .f32⟩
  | 81 => ⟨S4000000, .f32⟩
  | 82 => ⟨S4000000, .f32⟩
  | 83 => ⟨S4000000, .f32⟩
  | 84 => ⟨S4000000, .f32⟩
  | 85 => ⟨S_, .f32⟩
  | 86 => ⟨S4000000, .f32⟩
  | 87 => ⟨S4000000, .f32⟩
  | 88 => ⟨S4000000, .f32⟩
  | 89 => ⟨S4000000, .f32⟩
  | 90 => ⟨S4000000, .f32⟩
  | 91 => ⟨S_, .f32⟩
  | 92 => ⟨S4000000, .f32⟩
  | 93 => ⟨S4000000, .f32⟩
  | 94 => ⟨S_, .f32⟩
  | 95 => ⟨S4000000, .f32⟩
  | 96 => ⟨S4000000, .f32⟩
  | 97 => ⟨S4000000x1, .f32⟩
  | 98 => ⟨S4000000x1, .f32⟩
  | 99 => ⟨S4000000x1, .f32⟩
  | 100 => ⟨S4000000x1, .f32⟩
  | 101 => ⟨S4000000x1, .f32⟩
  | 102 => ⟨S4000000x1, .f32⟩
  | 103 => ⟨S4000000x1, .f32⟩
  | 104 => ⟨S4000000x1, .f32⟩
  | 105 => ⟨S4000000x1, .f32⟩
  | 106 => ⟨S4000000x9, .f32⟩
  | 107 => ⟨S4000000x3x3, .f32⟩
  | 108 => ⟨S4000000x1x3, .f32⟩
  | 109 => ⟨S4000000x3x3, .f32⟩
  | 110 => ⟨S4000000x3x3, .f32⟩
  | 111 => ⟨S4000000x3x3, .f32⟩
  | 112 => ⟨S4000000x1x1, .f32⟩
  | 113 => ⟨S4000000, .f32⟩
  | 114 => ⟨S4000000x1x1, .f32⟩
  | 115 => ⟨S4000000, .f32⟩
  | 116 => ⟨S4000000x1x1, .f32⟩
  | 117 => ⟨S4000000, .f32⟩
  | 118 => ⟨S4000000x1x1, .f32⟩
  | 119 => ⟨S4000000, .f32⟩
  | 120 => ⟨S4000000x1x1, .f32⟩
  | 121 => ⟨S4000000, .f32⟩
  | 122 => ⟨S4000000x1x1, .f32⟩
  | 123 => ⟨S4000000, .f32⟩
  | 124 => ⟨S4000000x1, .f32⟩
  | 125 => ⟨S4000000x1, .f32⟩
  | 126 => ⟨S4000000x1, .f32⟩
  | 127 => ⟨S4000000x1, .f32⟩
  | _ => ⟨S4000000x3, .f32⟩

abbrev hbmTy0_1 (i : Nat) : BufTy := match i % 128 with
  | 0 => ⟨S4000000x1, .f32⟩
  | 1 => ⟨S4000000x1, .f32⟩
  | 2 => ⟨S4000000x6, .f32⟩
  | _ => ⟨S4000000x3, .f32⟩

abbrev hbmTy (i : Nat) : BufTy := match i / 128 with
  | 0 => hbmTy0_0 i
  | 1 => hbmTy0_1 i
  | _ => ⟨S4000000x3, .f32⟩

abbrev bufTy : (tb : Table) → Fin (tcTables nBuf tb) → BufTy
  | .hbm, ⟨i, _⟩ => hbmTy i
  | _, _ => ⟨S4000000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_v11 : Ref sig .tc := ⟨.hbm, 18, rfl⟩
abbrev main_call0_v0 : Ref sig .tc := ⟨.hbm, 19, rfl⟩
abbrev main_call0_cst : Ref sig .tc := ⟨.hbm, 20, rfl⟩
abbrev main_call0_v1 : Ref sig .tc := ⟨.hbm, 21, rfl⟩
abbrev main_call0_v2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_8 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_9 : Ref sig .tc := ⟨.hbm, 64, rfl⟩
abbrev main_v48 : Ref sig .tc := ⟨.hbm, 65, rfl⟩
abbrev main_v49 : Ref sig .tc := ⟨.hbm, 66, rfl⟩
abbrev main_cst_10 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_11 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_12 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_13 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_cst_14 : Ref sig .tc := ⟨.hbm, 91, rfl⟩
abbrev main_v70 : Ref sig .tc := ⟨.hbm, 92, rfl⟩
abbrev main_v71 : Ref sig .tc := ⟨.hbm, 93, rfl⟩
abbrev main_cst_15 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩

abbrev nD : Nat := 1
abbrev τ : Topo := Topo.v7x

variable {F : FTy → Type} [FloatOps F]

class Facts₀ : Prop where
  bcast_S_S4000000x3 : S_.BroadcastsInDim S4000000x3 (![] : Fin 0 → Fin S4000000x3.rank)
  reducesTo_S4000000x4_S4000000_d1 : S4000000x4.ReducesTo [1] S4000000
  h_S_ : 0 < S_.numel
  bcast_S4000000_S4000000x1_0 : S4000000.BroadcastsInDim S4000000x1 (![0] : Fin 1 → Fin S4000000x1.rank)
  bcast_S4000000x1_S4000000x4_0_1 : S4000000x1.BroadcastsInDim S4000000x4 (![0, 1] : Fin 2 → Fin S4000000x4.rank)
  slices_S4000000x4_S4000000x1_0_0 : S4000000x4.Slices ![0, 0] S4000000x1
  shapeCasts_S4000000x1_S4000000 : S4000000x1.ShapeCasts S4000000
  slices_S4000000x4_S4000000x1_0_1 : S4000000x4.Slices ![0, 1] S4000000x1
  slices_S4000000x4_S4000000x1_0_2 : S4000000x4.Slices ![0, 2] S4000000x1
  slices_S4000000x4_S4000000x1_0_3 : S4000000x4.Slices ![0, 3] S4000000x1
  bcast_S_S4000000 : S_.BroadcastsInDim S4000000 (![] : Fin 0 → Fin S4000000.rank)
  concatenates_S4000000x1_S4000000x1_S4000000x1_S4000000x1_S4000000x1_S4000000x1_S4000000x1_S4000000x1_S4000000x1_S4000000x9_d1 : Shape.Concatenates [S4000000x1, S4000000x1, S4000000x1, S4000000x1, S4000000x1, S4000000x1, S4000000x1, S4000000x1, S4000000x1] S4000000x9 1
  shapeCasts_S4000000x9_S4000000x3x3 : S4000000x9.ShapeCasts S4000000x3x3
  bcast_S4000000x3_S4000000x1x3_0_2 : S4000000x3.BroadcastsInDim S4000000x1x3 (![0, 2] : Fin 2 → Fin S4000000x1x3.rank)
  bcast_S4000000x1x3_S4000000x3x3_0_1_2 : S4000000x1x3.BroadcastsInDim S4000000x3x3 (![0, 1, 2] : Fin 3 → Fin S4000000x3x3.rank)
  slices_S4000000x3x3_S4000000x1x1_0_0_0 : S4000000x3x3.Slices ![0, 0, 0] S4000000x1x1
  shapeCasts_S4000000x1x1_S4000000 : S4000000x1x1.ShapeCasts S4000000
  slices_S4000000x3x3_S4000000x1x1_0_0_1 : S4000000x3x3.Slices ![0, 0, 1] S4000000x1x1
  slices_S4000000x3x3_S4000000x1x1_0_0_2 : S4000000x3x3.Slices ![0, 0, 2] S4000000x1x1
  slices_S4000000x3x3_S4000000x1x1_0_1_1 : S4000000x3x3.Slices ![0, 1, 1] S4000000x1x1
  slices_S4000000x3x3_S4000000x1x1_0_1_2 : S4000000x3x3.Slices ![0, 1, 2] S4000000x1x1
  slices_S4000000x3x3_S4000000x1x1_0_2_2 : S4000000x3x3.Slices ![0, 2, 2] S4000000x1x1
  concatenates_S4000000x1_S4000000x1_S4000000x1_S4000000x1_S4000000x1_S4000000x1_S4000000x6_d1 : Shape.Concatenates [S4000000x1, S4000000x1, S4000000x1, S4000000x1, S4000000x1, S4000000x1] S4000000x6 1
  dot_S4000000x3x3_S4000000x3x3_S4000000x3x3_2_2_1_1_0_0_wf : DotDims.WF S4000000x3x3 S4000000x3x3 S4000000x3x3 [2] [2] [1] [1] [0] [0]

variable [Facts₀]

def dot_S4000000x3x3_S4000000x3x3_S4000000x3x3_2_2_1_1_0_0 : DotDims S4000000x3x3 S4000000x3x3 S4000000x3x3 where
  lhsContracting := [2]
  rhsContracting := [2]
  lhsNonContracting := [1]
  rhsNonContracting := [1]
  lhsBatch := [0]
  rhsBatch := [0]
  wf := dot_S4000000x3x3_S4000000x3x3_S4000000x3x3_2_2_1_1_0_0_wf

class Facts : Prop extends Facts₀ where

variable [Facts]
-- ==== Proof.Spec.lean ====
/-
  The covariance of one Gaussian, as a function of its row of raw scales `a : Fin 3 → EReal` and its raw quaternion
  `q : Fin 4 → EReal`, over the extended reals.

  * The scale of an axis is `s = 1 · (σ(a) · c + c')`, `σ` the logistic function and `c`, `c'` two fixed binary literals.
  * The quaternion is divided by its Euclidean norm `√(Σ q_k²)`, giving `u = (r, x, y, z)`.
  * `R` is the 3×3 matrix of that unit quaternion, each entry of the form `1 − 2·(…)` or `2·(…)`.
  * The covariance is `C = (R·diag s)·(R·diag s)ᵀ`, so `C i k = Σ_j (R i j · s j) · (R k j · s j)`; written with the
    squares of the scales it is `C i k = Σ_j (R i j · R k j) · (s j · s j)`. The two forms agree term by term by
    commutativity and associativity of the product alone, which hold on all of the extended reals: no entry needs
    to be finite.
  * The result lists the six entries of the upper triangle of `C`: (0,0), (0,1), (0,2), (1,1), (1,2), (2,2).
-/
import Idealize.ShloMosaic.PureOps.Ideal
import Idealize.ShloMosaic.Lib.ValueIdx

noncomputable section

namespace Cert.Covariance

open Idealize.ShloMosaic Idealize.ShloMosaic.ValueIdx

/-- The width of the interval of admissible scales, as the binary literal both programs carry. -/
abbrev cSpan : EReal := Ideal.ofBits .f32 0x411FFF97#32
/-- The smallest admissible scale, as the binary literal both programs carry. -/
abbrev cMin : EReal := Ideal.ofBits .f32 0x38D1B717#32
/-- The literal one. -/
abbrev cOne : EReal := Ideal.ofBits .f32 0x3F800000#32
/-- The literal two. -/
abbrev cTwo : EReal := Ideal.ofBits .f32 0x40000000#32

/-- The scale of one axis from its raw parameter: the logistic function mapped affinely onto the admissible
    interval (and multiplied by the modifier one). -/
def axisScale (a : EReal) : EReal := cOne * (Ideal.logistic a * cSpan + cMin)

/-- The Euclidean norm of a quaternion. -/
def quatNorm (q : Fin 4 → EReal) : EReal := Ideal.sqrt (∑ k : Fin 4, q k * q k)

/-- The quaternion divided by its norm. -/
def quatUnit (q : Fin 4 → EReal) (k : Fin 4) : EReal := Ideal.div (q k) (quatNorm q)

/-! The nine entries of the rotation matrix of `u = (r, x, y, z)`. -/
def r00 (u : Fin 4 → EReal) : EReal := cOne - cTwo * (u 2 * u 2 + u 3 * u 3)
def r01 (u : Fin 4 → EReal) : EReal := cTwo * (u 1 * u 2 - u 0 * u 3)
def r02 (u : Fin 4 → EReal) : EReal := cTwo * (u 1 * u 3 + u 0 * u 2)
def r10 (u : Fin 4 → EReal) : EReal := cTwo * (u 1 * u 2 + u 0 * u 3)
def r11 (u : Fin 4 → EReal) : EReal := cOne - cTwo * (u 1 * u 1 + u 3 * u 3)
def r12 (u : Fin 4 → EReal) : EReal := cTwo * (u 2 * u 3 - u 0 * u 1)
def r20 (u : Fin 4 → EReal) : EReal := cTwo * (u 1 * u 3 - u 0 * u 2)
def r21 (u : Fin 4 → EReal) : EReal := cTwo * (u 2 * u 3 + u 0 * u 1)
def r22 (u : Fin 4 → EReal) : EReal := cOne - cTwo * (u 1 * u 1 + u 2 * u 2)

/-- The rotation matrix. -/
def rot (u : Fin 4 → EReal) : Fin 3 → Fin 3 → EReal :=
  ![![r00 u, r01 u, r02 u], ![r10 u, r11 u, r12 u], ![r20 u, r21 u, r22 u]]

/-- Entry (i, k) of the covariance, over the squares of the scales. -/
def cov (s : Fin 3 → EReal) (R : Fin 3 → Fin 3 → EReal) (i k : Fin 3) : EReal :=
  R i 0 * R k 0 * (s 0 * s 0) + R i 1 * R k 1 * (s 1 * s 1) + R i 2 * R k 2 * (s 2 * s 2)

/-- Entry (i, k) of `(R·diag s)·(R·diag s)ᵀ`. -/
def covGram (s : Fin 3 → EReal) (R : Fin 3 → Fin 3 → EReal) (i k : Fin 3) : EReal :=
  ∑ j : Fin 3, (R i j * s j) * (R k j * s j)

/-- The two forms of the covariance agree: each product `(R i j · s j)·(R k j · s j)` is `(R i j · R k j)·(s j · s j)`. -/
theorem covGram_eq_cov (s : Fin 3 → EReal) (R : Fin 3 → Fin 3 → EReal) (i k : Fin 3) :
    covGram s R i k = cov s R i k := by
  unfold covGram cov
  rw [Fin.sum_univ_three, mul_mul_mul_comm (R i 0) (s 0) (R k 0) (s 0), mul_mul_mul_comm (R i 1) (s 1) (R k 1) (s 1),
    mul_mul_mul_comm (R i 2) (s 2) (R k 2) (s 2)]

/-- Row and column of the e-th listed entry of the upper triangle. -/
def triRow : Fin 6 → Fin 3 := ![0, 0, 0, 1, 1, 2]
def triCol : Fin 6 → Fin 3 := ![0, 1, 2, 1, 2, 2]

/-- The e-th listed covariance entry of the Gaussian with raw scales `a` and raw quaternion `q`. -/
def entry (a : Fin 3 → EReal) (q : Fin 4 → EReal) (e : Fin 6) : EReal :=
  cov (fun j => axisScale (a j)) (rot (quatUnit q)) (triRow e) (triCol e)

/-- The arrays' shapes: one row per Gaussian. -/
abbrev Rows3 : Shape := ⟨2, ![4000000, 3]⟩
abbrev Rows4 : Shape := ⟨2, ![4000000, 4]⟩
abbrev Rows6 : Shape := ⟨2, ![4000000, 6]⟩

/-- Entry e of Gaussian n, from the two argument arrays. -/
def rowEntry (A0 : Rows3.Idx → EReal) (A1 : Rows4.Idx → EReal) (n : Fin 4000000) (e : Fin 6) : EReal :=
  entry (fun j => A0 (ix2 n j)) (fun k => A1 (ix2 n k)) e

/-- The whole result array. -/
def result (A0 : Rows3.Idx → EReal) (A1 : Rows4.Idx → EReal) : Rows6.Idx → EReal :=
  fun i => rowEntry A0 A1 (i 0) (i 1)

theorem result_ix2 (A0 : Rows3.Idx → EReal) (A1 : Rows4.Idx → EReal) (n : Fin 4000000) (e : Fin 6) :
    result A0 A1 (ix2 n e) = rowEntry A0 A1 n e := rfl

/-- A function on the result's indices that reads `rowEntry` at every pair of coordinates is the result array. -/
theorem eq_result (A0 : Rows3.Idx → EReal) (A1 : Rows4.Idx → EReal) (X : Rows6.Idx → EReal)
    (h : ∀ (n : Fin 4000000) (e : Fin 6), X (ix2 n e) = rowEntry A0 A1 n e) : X = result A0 A1 :=
  funext fun i => (congrArg X (eq_ix2 i)).trans (h (i 0) (i 1))

end Cert.Covariance

end
-- ==== Proof.KernelRows.lean ====
/-
  The kernel body's arithmetic, read at one lane.

  A block holds 32000 Gaussians, one per lane `l`: the raw scales are the column `l` of a 3 × 32000 block, the raw
  quaternion the column `l` of a 4 × 32000 block, and the body stores six rows, row `e` holding at lane `l` the
  `e`-th listed covariance entry of that Gaussian. Everything the body does is lane by lane except three things:
  the sum of the quaternion's four squares runs down the column, the norm is broadcast back to the column's four
  rows, and single rows are sliced out of the 4-row and 3-row intermediates. This module reads each intermediate
  value of the body at lane `l` and ends with the six stored rows as `Covariance.cov` of the column's scales and
  rotation matrix.
-/
import proofs.«171424_j12360915878348_2_alg».proof.Proof.Gen.KernelIdeal.Skeleton
import proofs.«171424_j12360915878348_2_alg».proof.Proof.Spec
import Idealize.ShloMosaic.Lib.ValueIdx
import Idealize.ShloMosaic.Lib.Pipeline.Value
import Idealize.ShloMosaic.PureOps.Ideal.Laws

noncomputable section

namespace Cert.KernelIdeal.Rows

open Idealize.ShloMosaic Idealize.ShloMosaic.ValueIdx Cert.KernelIdeal Cert.KernelIdeal.Gen Cert.Covariance

/-- Column `l` of a block of raw scales. -/
def colA (x0 : Vec Ideal S3x32000 .f32) (l : Fin 32000) : Fin 3 → EReal := fun j => x0 (ix2 j l)
/-- Column `l` of a block of raw quaternions. -/
def colQ (x1 : Vec Ideal S4x32000 .f32) (l : Fin 32000) : Fin 4 → EReal := fun k => x1 (ix2 k l)

/-! ## The layout steps, each at a lane -/

/-- Row `o` sliced out of a 4-row value. -/
theorem slice4 (v : FVec Ideal S4x32000 .f32) (o : Nat) (ho : o < 4) (h : S4x32000.Slices ![o, 0] S1x32000) (l : Fin 32000) :
    extractStridedSlice S1x32000 ![o, 0] v h (ix2 0 l) = v (ix2 ⟨o, ho⟩ l) :=
  extractStridedSlice_apply ![o, 0] v h (ix2 0 l) (ix2 ⟨o, ho⟩ l) (fun a => by
    match a with
    | ⟨0, _⟩ => rfl
    | ⟨1, _⟩ => exact (Nat.zero_add _).symm)

/-- Row `o` sliced out of a 3-row value. -/
theorem slice3 (v : FVec Ideal S3x32000 .f32) (o : Nat) (ho : o < 3) (h : S3x32000.Slices ![o, 0] S1x32000) (l : Fin 32000) :
    extractStridedSlice S1x32000 ![o, 0] v h (ix2 0 l) = v (ix2 ⟨o, ho⟩ l) :=
  extractStridedSlice_apply ![o, 0] v h (ix2 0 l) (ix2 ⟨o, ho⟩ l) (fun a => by
    match a with
    | ⟨0, _⟩ => rfl
    | ⟨1, _⟩ => exact (Nat.zero_add _).symm)

/-- The sum down a column of a 4-row value. -/
theorem colSum (v : FVec Ideal S4x32000 .f32) (hφ : FKind.Formats .f32) (hacc : (0x00000000#32 : BitVec 32) = 0x00000000#32)
    (l : Fin 32000) :
    multiReduction .add [0] S32000 v 0x00000000#32 reduces_S4x32000_S32000 hφ hacc (ix1 l) = ∑ k : Fin 4, v (ix2 k l) := by
  refine (Ideal.multiReduction_add_single v 0x00000000#32 reduces_S4x32000_S32000 hφ hacc (ix1 l)).trans ?_
  exact Finset.sum_congr rfl fun k _ => congrArg v (funext fun a => Fin.ext (by
    match a with
    | ⟨0, _⟩ => rfl
    | ⟨1, _⟩ => rfl))

/-- A 32000-vector viewed as one row. -/
theorem asRow (v : FVec Ideal S32000 .f32) (l : Fin 32000) :
    shapeCast S1x32000 v shapeCasts_S32000_S1x32000 (ix2 0 l) = v (ix1 l) :=
  shapeCast_apply v shapeCasts_S32000_S1x32000 (ix2 0 l) (ix1 l) (by
    rw [Shape.rowMajor_val_one, Shape.rowMajor_val_two]
    show l.val = 0 * 32000 + l.val
    omega)

/-- One row broadcast to four. -/
theorem toRows (v : FVec Ideal S1x32000 .f32) (k : Fin 4) (l : Fin 32000) :
    broadcastTo S4x32000 v broadcasts_S1x32000_S4x32000 (ix2 k l) = v (ix2 0 l) :=
  broadcastTo_apply v broadcasts_S1x32000_S4x32000 (ix2 k l) (ix2 0 l) (fun a => by
    match a with
    | ⟨0, _⟩ => show 0 = if (1 : Nat) = 1 then 0 else _; rw [if_pos rfl]
    | ⟨1, _⟩ => show l.val = if (32000 : Nat) = 1 then 0 else l.val; rw [if_neg (by decide)])

/-- The square root is taken lane by lane. -/
theorem sqrt_at (v : FVec Ideal S1x32000 .f32) (i : S1x32000.Idx) : sqrt v i = Ideal.sqrt (v i) := rfl

/-! ## The squared scales and the unit quaternion -/

/-- The 3-row value the body keeps of the scales is their squares. -/
theorem scales_at (x0 : Vec Ideal S3x32000 .f32) (j : Fin 3) (l : Fin 32000) :
    k0_pay3 x0 (ix2 j l) = axisScale (colA x0 l j) * axisScale (colA x0 l j) := by
  unfold k0_pay3
  rw [shapeCast_self]
  rfl

/-- The 4-row value the body keeps of the quaternions is each divided by its norm. -/
theorem unit_at (x1 : Vec Ideal S4x32000 .f32) (k : Fin 4) (l : Fin 32000) :
    k0_pay4 x1 (ix2 k l) = quatUnit (colQ x1 l) k := by
  unfold k0_pay4
  dsimp only
  rw [shapeCast_self, divf_apply, toRows, sqrt_at, asRow, colSum]
  rfl

/-! ## The rows sliced out of them -/

variable (x0 : Vec Ideal S3x32000 .f32) (x1 : Vec Ideal S4x32000 .f32) (l : Fin 32000)

/-- The unit quaternion of lane `l`. -/
abbrev U : Fin 4 → EReal := quatUnit (colQ x1 l)

theorem r_at : k0_pay5 x1 (ix2 0 l) = U x1 l 0 := by
  unfold k0_pay5; exact (slice4 _ 0 (by decide) _ l).trans (unit_at x1 _ l)
theorem x_at : k0_pay6 x1 (ix2 0 l) = U x1 l 1 := by
  unfold k0_pay6; exact (slice4 _ 1 (by decide) _ l).trans (unit_at x1 _ l)
theorem y_at : k0_pay7 x1 (ix2 0 l) = U x1 l 2 := by
  unfold k0_pay7; exact (slice4 _ 2 (by decide) _ l).trans (unit_at x1 _ l)
theorem z_at : k0_pay8 x1 (ix2 0 l) = U x1 l 3 := by
  unfold k0_pay8; exact (slice4 _ 3 (by decide) _ l).trans (unit_at x1 _ l)

/-- The three rows of squared scales. -/
theorem s0_at : k0_pay28 (k0_pay3 x0) (ix2 0 l) = axisScale (colA x0 l 0) * axisScale (colA x0 l 0) := by
  unfold k0_pay28; exact (slice3 _ 0 (by decide) _ l).trans (scales_at x0 _ l)
theorem s1_at : k0_pay29 (k0_pay3 x0) (ix2 0 l) = axisScale (colA x0 l 1) * axisScale (colA x0 l 1) := by
  unfold k0_pay29; exact (slice3 _ 1 (by decide) _ l).trans (scales_at x0 _ l)
theorem s2_at : k0_pay30 (k0_pay3 x0) (ix2 0 l) = axisScale (colA x0 l 2) * axisScale (colA x0 l 2) := by
  unfold k0_pay30; exact (slice3 _ 2 (by decide) _ l).trans (scales_at x0 _ l)

/-! ## The products of two components -/

theorem xx_at : k0_pay9 x1 (ix2 0 l) = U x1 l 1 * U x1 l 1 := by
  show k0_pay6 x1 (ix2 0 l) * k0_pay6 x1 (ix2 0 l) = _; rw [x_at]
theorem yy_at : k0_pay10 x1 (ix2 0 l) = U x1 l 2 * U x1 l 2 := by
  show k0_pay7 x1 (ix2 0 l) * k0_pay7 x1 (ix2 0 l) = _; rw [y_at]
theorem zz_at : k0_pay11 x1 (ix2 0 l) = U x1 l 3 * U x1 l 3 := by
  show k0_pay8 x1 (ix2 0 l) * k0_pay8 x1 (ix2 0 l) = _; rw [z_at]
theorem xy_at : k0_pay12 x1 (ix2 0 l) = U x1 l 1 * U x1 l 2 := by
  show k0_pay6 x1 (ix2 0 l) * k0_pay7 x1 (ix2 0 l) = _; rw [x_at, y_at]
theorem xz_at : k0_pay13 x1 (ix2 0 l) = U x1 l 1 * U x1 l 3 := by
  show k0_pay6 x1 (ix2 0 l) * k0_pay8 x1 (ix2 0 l) = _; rw [x_at, z_at]
theorem yz_at : k0_pay14 x1 (ix2 0 l) = U x1 l 2 * U x1 l 3 := by
  show k0_pay7 x1 (ix2 0 l) * k0_pay8 x1 (ix2 0 l) = _; rw [y_at, z_at]
theorem rx_at : k0_pay15 x1 (ix2 0 l) = U x1 l 0 * U x1 l 1 := by
  show k0_pay5 x1 (ix2 0 l) * k0_pay6 x1 (ix2 0 l) = _; rw [r_at, x_at]
theorem ry_at : k0_pay16 x1 (ix2 0 l) = U x1 l 0 * U x1 l 2 := by
  show k0_pay5 x1 (ix2 0 l) * k0_pay7 x1 (ix2 0 l) = _; rw [r_at, y_at]
theorem rz_at : k0_pay17 x1 (ix2 0 l) = U x1 l 0 * U x1 l 3 := by
  show k0_pay5 x1 (ix2 0 l) * k0_pay8 x1 (ix2 0 l) = _; rw [r_at, z_at]

/-! ## The nine entries of the rotation matrix -/

theorem R00_at : k0_pay18 x1 (ix2 0 l) = r00 (U x1 l) := by
  show cOne - cTwo * (k0_pay10 x1 (ix2 0 l) + k0_pay11 x1 (ix2 0 l)) = _; rw [yy_at, zz_at]; rfl
theorem R01_at : k0_pay19 x1 (ix2 0 l) = r01 (U x1 l) := by
  show cTwo * (k0_pay12 x1 (ix2 0 l) - k0_pay17 x1 (ix2 0 l)) = _; rw [xy_at, rz_at]; rfl
theorem R02_at : k0_pay20 x1 (ix2 0 l) = r02 (U x1 l) := by
  show cTwo * (k0_pay13 x1 (ix2 0 l) + k0_pay16 x1 (ix2 0 l)) = _; rw [xz_at, ry_at]; rfl
theorem R10_at : k0_pay21 x1 (ix2 0 l) = r10 (U x1 l) := by
  show cTwo * (k0_pay12 x1 (ix2 0 l) + k0_pay17 x1 (ix2 0 l)) = _; rw [xy_at, rz_at]; rfl
theorem R11_at : k0_pay23 (k0_pay22 x1) (ix2 0 l) = r11 (U x1 l) := by
  show cOne - cTwo * (k0_pay9 x1 (ix2 0 l) + k0_pay11 x1 (ix2 0 l)) = _; rw [xx_at, zz_at]; rfl
theorem R12_at : k0_pay24 (k0_pay14 x1) (k0_pay15 x1) (ix2 0 l) = r12 (U x1 l) := by
  show cTwo * (k0_pay14 x1 (ix2 0 l) - k0_pay15 x1 (ix2 0 l)) = _; rw [yz_at, rx_at]; rfl
theorem R20_at : k0_pay25 (k0_pay13 x1) (k0_pay16 x1) (ix2 0 l) = r20 (U x1 l) := by
  show cTwo * (k0_pay13 x1 (ix2 0 l) - k0_pay16 x1 (ix2 0 l)) = _; rw [xz_at, ry_at]; rfl
theorem R21_at : k0_pay26 (k0_pay14 x1) (k0_pay15 x1) (ix2 0 l) = r21 (U x1 l) := by
  show cTwo * (k0_pay14 x1 (ix2 0 l) + k0_pay15 x1 (ix2 0 l)) = _; rw [yz_at, rx_at]; rfl
theorem R22_at : k0_pay27 (k0_pay9 x1) (k0_pay10 x1) (ix2 0 l) = r22 (U x1 l) := by
  show cOne - cTwo * (k0_pay9 x1 (ix2 0 l) + k0_pay10 x1 (ix2 0 l)) = _; rw [xx_at, yy_at]; rfl

/-! ## The six stored rows -/

/-- The squared scales of lane `l`, as the specification spells them. -/
abbrev S : Fin 3 → EReal := fun j => axisScale (colA x0 l j)

/-- Row 0: entry (0,0). -/
theorem row0_at : k0_pay31 (k0_pay3 x0) (k0_pay18 x1) (k0_pay19 x1) (k0_pay20 x1) (ix2 0 l) = cov (S x0 l) (rot (U x1 l)) 0 0 := by
  show k0_pay18 x1 (ix2 0 l) * k0_pay18 x1 (ix2 0 l) * k0_pay28 (k0_pay3 x0) (ix2 0 l)
      + k0_pay19 x1 (ix2 0 l) * k0_pay19 x1 (ix2 0 l) * k0_pay29 (k0_pay3 x0) (ix2 0 l)
      + k0_pay20 x1 (ix2 0 l) * k0_pay20 x1 (ix2 0 l) * k0_pay30 (k0_pay3 x0) (ix2 0 l) = _
  rw [R00_at, R01_at, R02_at, s0_at, s1_at, s2_at]; rfl

/-- Row 1: entry (0,1). -/
theorem row1_at : k0_pay32 (k0_pay3 x0) (k0_pay14 x1) (k0_pay15 x1) (k0_pay18 x1) (k0_pay19 x1) (k0_pay20 x1) (k0_pay21 x1) (k0_pay22 x1) (ix2 0 l)
    = cov (S x0 l) (rot (U x1 l)) 0 1 := by
  show k0_pay18 x1 (ix2 0 l) * k0_pay21 x1 (ix2 0 l) * k0_pay28 (k0_pay3 x0) (ix2 0 l)
      + k0_pay19 x1 (ix2 0 l) * k0_pay23 (k0_pay22 x1) (ix2 0 l) * k0_pay29 (k0_pay3 x0) (ix2 0 l)
      + k0_pay20 x1 (ix2 0 l) * k0_pay24 (k0_pay14 x1) (k0_pay15 x1) (ix2 0 l) * k0_pay30 (k0_pay3 x0) (ix2 0 l) = _
  rw [R00_at, R01_at, R02_at, R10_at, R11_at, R12_at, s0_at, s1_at, s2_at]; rfl

/-- Row 2: entry (0,2). -/
theorem row2_at : k0_pay33 (k0_pay3 x0) (k0_pay9 x1) (k0_pay10 x1) (k0_pay13 x1) (k0_pay14 x1) (k0_pay15 x1) (k0_pay16 x1) (k0_pay18 x1) (k0_pay19 x1) (k0_pay20 x1) (ix2 0 l)
    = cov (S x0 l) (rot (U x1 l)) 0 2 := by
  show k0_pay18 x1 (ix2 0 l) * k0_pay25 (k0_pay13 x1) (k0_pay16 x1) (ix2 0 l) * k0_pay28 (k0_pay3 x0) (ix2 0 l)
      + k0_pay19 x1 (ix2 0 l) * k0_pay26 (k0_pay14 x1) (k0_pay15 x1) (ix2 0 l) * k0_pay29 (k0_pay3 x0) (ix2 0 l)
      + k0_pay20 x1 (ix2 0 l) * k0_pay27 (k0_pay9 x1) (k0_pay10 x1) (ix2 0 l) * k0_pay30 (k0_pay3 x0) (ix2 0 l) = _
  rw [R00_at, R01_at, R02_at, R20_at, R21_at, R22_at, s0_at, s1_at, s2_at]; rfl

/-- Row 3: entry (1,1). -/
theorem row3_at : k0_pay34 (k0_pay3 x0) (k0_pay14 x1) (k0_pay15 x1) (k0_pay21 x1) (k0_pay22 x1) (ix2 0 l) = cov (S x0 l) (rot (U x1 l)) 1 1 := by
  show k0_pay21 x1 (ix2 0 l) * k0_pay21 x1 (ix2 0 l) * k0_pay28 (k0_pay3 x0) (ix2 0 l)
      + k0_pay23 (k0_pay22 x1) (ix2 0 l) * k0_pay23 (k0_pay22 x1) (ix2 0 l) * k0_pay29 (k0_pay3 x0) (ix2 0 l)
      + k0_pay24 (k0_pay14 x1) (k0_pay15 x1) (ix2 0 l) * k0_pay24 (k0_pay14 x1) (k0_pay15 x1) (ix2 0 l) * k0_pay30 (k0_pay3 x0) (ix2 0 l) = _
  rw [R10_at, R11_at, R12_at, s0_at, s1_at, s2_at]; rfl

/-- Row 4: entry (1,2). -/
theorem row4_at : k0_pay1 (k0_pay21 x1) (k0_pay23 (k0_pay22 x1)) (k0_pay24 (k0_pay14 x1) (k0_pay15 x1)) (k0_pay25 (k0_pay13 x1) (k0_pay16 x1))
      (k0_pay26 (k0_pay14 x1) (k0_pay15 x1)) (k0_pay27 (k0_pay9 x1) (k0_pay10 x1)) (k0_pay28 (k0_pay3 x0)) (k0_pay29 (k0_pay3 x0)) (k0_pay30 (k0_pay3 x0)) (ix2 0 l)
    = cov (S x0 l) (rot (U x1 l)) 1 2 := by
  show k0_pay21 x1 (ix2 0 l) * k0_pay25 (k0_pay13 x1) (k0_pay16 x1) (ix2 0 l) * k0_pay28 (k0_pay3 x0) (ix2 0 l)
      + k0_pay23 (k0_pay22 x1) (ix2 0 l) * k0_pay26 (k0_pay14 x1) (k0_pay15 x1) (ix2 0 l) * k0_pay29 (k0_pay3 x0) (ix2 0 l)
      + k0_pay24 (k0_pay14 x1) (k0_pay15 x1) (ix2 0 l) * k0_pay27 (k0_pay9 x1) (k0_pay10 x1) (ix2 0 l) * k0_pay30 (k0_pay3 x0) (ix2 0 l) = _
  rw [R10_at, R11_at, R12_at, R20_at, R21_at, R22_at, s0_at, s1_at, s2_at]; rfl

/-- Row 5: entry (2,2). -/
theorem row5_at : k0_pay2 (k0_pay25 (k0_pay13 x1) (k0_pay16 x1)) (k0_pay26 (k0_pay14 x1) (k0_pay15 x1)) (k0_pay27 (k0_pay9 x1) (k0_pay10 x1))
      (k0_pay28 (k0_pay3 x0)) (k0_pay29 (k0_pay3 x0)) (k0_pay30 (k0_pay3 x0)) (ix2 0 l)
    = cov (S x0 l) (rot (U x1 l)) 2 2 := by
  show k0_pay25 (k0_pay13 x1) (k0_pay16 x1) (ix2 0 l) * k0_pay25 (k0_pay13 x1) (k0_pay16 x1) (ix2 0 l) * k0_pay28 (k0_pay3 x0) (ix2 0 l)
      + k0_pay26 (k0_pay14 x1) (k0_pay15 x1) (ix2 0 l) * k0_pay26 (k0_pay14 x1) (k0_pay15 x1) (ix2 0 l) * k0_pay29 (k0_pay3 x0) (ix2 0 l)
      + k0_pay27 (k0_pay9 x1) (k0_pay10 x1) (ix2 0 l) * k0_pay27 (k0_pay9 x1) (k0_pay10 x1) (ix2 0 l) * k0_pay30 (k0_pay3 x0) (ix2 0 l) = _
  rw [R20_at, R21_at, R22_at, s0_at, s1_at, s2_at]; rfl

end Cert.KernelIdeal.Rows

end
-- ==== Proof.KernelValue.lean ====
/-
  What the kernel program leaves in its result array.

  The program transposes the two arguments to 3 × N and 4 × N (N = 4 000 000 Gaussians along the lanes), runs the
  body over 125 blocks of 32000 lanes, and transposes the 6 × N output back to N × 6.

  * After the body, the output block is one function of the two input blocks: row `e`, lane `l` holds the `e`-th
    listed covariance entry of the Gaussian whose raw parameters are column `l` of the input blocks (the body's six
    row stores, read back together).
  * Block `t` of each of the three windows is columns `32000 t … 32000 t + 31999` of its array, all rows; so what
    point `t` writes back is block `t` of ONE function of the two transposed arrays, `wide`: row `e`, column `g` is
    the entry `e` of the Gaussian in column `g`.
  * Every column lies in the block `g / 32000`, so the 6 × N array ends holding `wide`.
  * Reading the two transposes before the region and the one after it at an index gives row `n`, entry `e` of the
    result as the entry `e` of Gaussian `n` of the argument arrays: `Covariance.result`.
-/
import proofs.«171424_j12360915878348_2_alg».proof.Proof.Gen.KernelIdeal.Frame
import proofs.«171424_j12360915878348_2_alg».proof.Proof.KernelRows
import proofs.«171424_j12360915878348_2_alg».proof.Proof.Spec
import Idealize.ShloMosaic.Lib.Pipeline.Value
import Idealize.ShloMosaic.Lib.StableHlo.Run
import Idealize.ShloMosaic.Lib.ValueIdx
import Idealize.ShloMosaic.Lib.Tactic

set_option maxRecDepth 16384

noncomputable section

namespace Cert.KernelIdeal.Whole

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Rows Cert.Covariance

/-! ## The output block as one function of the input blocks -/

theorem hz : (![0, 0] : Fin 2 → Nat) = fun _ => 0 := funext fun a => by fin_cases a <;> rfl

/-- Row `e`, lane `l` of the output block. -/
def blockRows (x0 : Vec Ideal S3x32000 .f32) (x1 : Vec Ideal S4x32000 .f32) : S6x32000.Idx → EReal :=
  fun y => cov (fun j => axisScale (colA x0 (y 1) j)) (rot (quatUnit (colQ x1 (y 1)))) (triRow (y 0)) (triCol (y 0))

/-- An index of a one-row value is its lane. -/
theorem row_idx (x : S1x32000.Idx) : x = ix2 0 (x 1) := funext fun a => by
  match a with
  | ⟨0, _⟩ => exact Fin.ext (by have h : (x 0).val < 1 := (x 0).isLt; show (x 0).val = 0; omega)
  | ⟨1, _⟩ => rfl

/-- Lane `l` of the row stored at offset `o` is index (o, l) of the block. -/
theorem emb_row (o : Nat) (ho : o < 6) (inb : ∀ a, (![o, 0] : Fin 2 → Nat) a + S1x32000.size a ≤ S6x32000.size a) (l : Fin 32000) :
    (Rect.unit (s := S6x32000) ![o, 0] S1x32000.size inb).emb (ix2 0 l) = ix2 ⟨o, ho⟩ l := funext fun a => Fin.ext (by
  match a with
  | ⟨0, _⟩ => show o + 1 * 0 = o; omega
  | ⟨1, _⟩ => show 0 + 1 * l.val = l.val; omega)

/-- The six row stores leave `blockRows` of the input blocks. -/
theorem out_block (x0 : Vec Ideal S3x32000 .f32) (x1 : Vec Ideal S4x32000 .f32) : out0_2 x0 x1 = blockRows x0 x1 := by
  funext y
  unfold out0_2
  simp only [View.ld_unit_zero (S := S3x32000) hz, View.ld_unit_zero (S := S4x32000) hz]
  refine View.canon_apply_of_pieces (Val := Elt Ideal) (blockRows x0 x1) _ ?_ y (cover0_2 _ _ _ _ _ _ y)
  intro p hp x
  simp only [List.mem_cons, List.mem_nil_iff, or_false] at hp
  rcases hp with rfl | rfl | rfl | rfl | rfl | rfl
  · obtain ⟨l, rfl⟩ : ∃ l : Fin 32000, x = ix2 0 l := ⟨x 1, row_idx x⟩
    refine (row5_at x0 x1 l).trans ?_
    show _ = blockRows x0 x1 ((Rect.unit (s := S6x32000) ![5, 0] S1x32000.size inb_S6x32000_S1x32000_5_0).emb (ix2 0 l))
    rw [emb_row 5 (by decide)]; rfl
  · obtain ⟨l, rfl⟩ : ∃ l : Fin 32000, x = ix2 0 l := ⟨x 1, row_idx x⟩
    refine (row4_at x0 x1 l).trans ?_
    show _ = blockRows x0 x1 ((Rect.unit (s := S6x32000) ![4, 0] S1x32000.size inb_S6x32000_S1x32000_4_0).emb (ix2 0 l))
    rw [emb_row 4 (by decide)]; rfl
  · obtain ⟨l, rfl⟩ : ∃ l : Fin 32000, x = ix2 0 l := ⟨x 1, row_idx x⟩
    refine (row3_at x0 x1 l).trans ?_
    show _ = blockRows x0 x1 ((Rect.unit (s := S6x32000) ![3, 0] S1x32000.size inb_S6x32000_S1x32000_3_0).emb (ix2 0 l))
    rw [emb_row 3 (by decide)]; rfl
  · obtain ⟨l, rfl⟩ : ∃ l : Fin 32000, x = ix2 0 l := ⟨x 1, row_idx x⟩
    refine (row2_at x0 x1 l).trans ?_
    show _ = blockRows x0 x1 ((Rect.unit (s := S6x32000) ![2, 0] S1x32000.size inb_S6x32000_S1x32000_2_0).emb (ix2 0 l))
    rw [emb_row 2 (by decide)]; rfl
  · obtain ⟨l, rfl⟩ : ∃ l : Fin 32000, x = ix2 0 l := ⟨x 1, row_idx x⟩
    refine (row1_at x0 x1 l).trans ?_
    show _ = blockRows x0 x1 ((Rect.unit (s := S6x32000) ![1, 0] S1x32000.size inb_S6x32000_S1x32000_1_0).emb (ix2 0 l))
    rw [emb_row 1 (by decide)]; rfl
  · obtain ⟨l, rfl⟩ : ∃ l : Fin 32000, x = ix2 0 l := ⟨x 1, row_idx x⟩
    refine (row0_at x0 x1 l).trans ?_
    show _ = blockRows x0 x1 ((Rect.unit (s := S6x32000) ![0, 0] S1x32000.size inb_S6x32000_S1x32000_0_0).emb (ix2 0 l))
    rw [emb_row 0 (by decide)]; rfl

/-! ## The whole 6 × N array -/

variable (m : (ℓ : Loc nD τ sig) → Buf (Elt Ideal) ℓ) (ρ : Dev nD → PrngReg)

/-- Entry `e` of the Gaussian in column `g` of the transposed arrays. -/
def colEntry (T0 : S3x4000000.Idx → EReal) (T1 : S4x4000000.Idx → EReal) (e : Fin 6) (g : Fin 4000000) : EReal :=
  cov (fun j => axisScale (T0 (ix2 j g))) (rot (quatUnit (fun k => T1 (ix2 k g)))) (triRow e) (triCol e)

/-- The 6 × N array the region leaves. -/
def wide (T0 : S3x4000000.Idx → EReal) (T1 : S4x4000000.Idx → EReal) : S6x4000000.Idx → EReal :=
  fun i => colEntry T0 T1 (i 0) (i 1)

/-- A block whose column `l` is column `g` of the two arrays holds, at lane `l`, column `g` of `wide`. -/
theorem blockRows_eq (T0 : S3x4000000.Idx → EReal) (T1 : S4x4000000.Idx → EReal) (x0 : Vec Ideal S3x32000 .f32) (x1 : Vec Ideal S4x32000 .f32)
    (e : Fin 6) (l : Fin 32000) (g : Fin 4000000)
    (h0 : ∀ j : Fin 3, x0 (ix2 j l) = T0 (ix2 j g)) (h1 : ∀ k : Fin 4, x1 (ix2 k l) = T1 (ix2 k g)) :
    blockRows x0 x1 (ix2 e l) = wide T0 T1 (ix2 e g) := by
  show cov (fun j => axisScale (x0 (ix2 j l))) (rot (quatUnit fun k => x1 (ix2 k l))) (triRow e) (triCol e)
    = cov (fun j => axisScale (T0 (ix2 j g))) (rot (quatUnit fun k => T1 (ix2 k g))) (triRow e) (triCol e)
  simp only [h0, h1]

/-- The 6 × N array of two arrays that are transposes of `A0`, `A1`, transposed back, is `Covariance.result`. -/
theorem transposed_wide (A0 : S4000000x3.Idx → EReal) (A1 : S4000000x4.Idx → EReal) (T0 : S3x4000000.Idx → EReal) (T1 : S4x4000000.Idx → EReal)
    (h0 : ∀ (j : Fin 3) (g : Fin 4000000), T0 (ix2 j g) = A0 (ix2 g j)) (h1 : ∀ (k : Fin 4) (g : Fin 4000000), T1 (ix2 k g) = A1 (ix2 g k)) :
    transpose S4000000x6 [1, 0] (wide T0 T1) transposes_S6x4000000_S4000000x6_1_0 = result A0 A1 := by
  refine eq_result A0 A1 _ fun n e => ?_
  refine (transpose_apply [1, 0] (wide T0 T1) transposes_S6x4000000_S4000000x6_1_0 (ix2 n e) (ix2 e n) (fun b => by
    match b with
    | ⟨0, _⟩ => rfl
    | ⟨1, _⟩ => rfl)).trans ?_
  show cov (fun j => axisScale (T0 (ix2 j n))) (rot (quatUnit fun k => T1 (ix2 k n))) (triRow e) (triCol e)
    = cov (fun j => axisScale (A0 (ix2 n j))) (rot (quatUnit fun k => A1 (ix2 n k))) (triRow e) (triCol e)
  simp only [h0, h1]

/-- The three index maps: all rows, block column `t`. -/
theorem idx_facts : ∀ t : Fin cfg0.N, win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val :=
  (by decide +kernel : ∀ t : Fin grid0.N, _)

/-- Block `t` of the scales, at row `j`, lane `l`: the transposed array at row `j`, column `32000 t + l`. -/
theorem iblk0_at (c : Dev nD) (t : Fin cfg0.N) (j : Fin 3) (l : Fin 32000) (g : Fin 4000000) (hg : g.val = t.val * 32000 + l.val) :
    (iblk m c 0 t : Vec Ideal S3x32000 .f32) (ix2 j l) = (V m c main_v0 : S3x4000000.Idx → EReal) (ix2 j g) := by
  obtain ⟨e0, e1, -, -, -, -⟩ := idx_facts t
  unfold iblk
  rw [View.read_apply]
  show V m c main_v0 (((cfg0.win 0).blk t).view.emb (ix2 j l)) = V m c main_v0 (ix2 j g)
  refine congrArg (V m c main_v0) (funext fun a => Fin.ext ?_)
  match a with
  | ⟨0, _⟩ => show win0_0.index t (0 : Fin 2) * 3 + 1 * j.val = j.val; rw [e0]; omega
  | ⟨1, _⟩ => show win0_0.index t (1 : Fin 2) * 32000 + 1 * l.val = g.val; rw [e1, hg]; omega

/-- Block `t` of the quaternions likewise. -/
theorem iblk1_at (c : Dev nD) (t : Fin cfg0.N) (k : Fin 4) (l : Fin 32000) (g : Fin 4000000) (hg : g.val = t.val * 32000 + l.val) :
    (iblk m c 1 t : Vec Ideal S4x32000 .f32) (ix2 k l) = (V m c main_v1 : S4x4000000.Idx → EReal) (ix2 k g) := by
  obtain ⟨-, -, e2, e3, -, -⟩ := idx_facts t
  unfold iblk
  rw [View.read_apply]
  show V m c main_v1 (((cfg0.win 1).blk t).view.emb (ix2 k l)) = V m c main_v1 (ix2 k g)
  refine congrArg (V m c main_v1) (funext fun a => Fin.ext ?_)
  match a with
  | ⟨0, _⟩ => show win0_1.index t (0 : Fin 2) * 4 + 1 * k.val = k.val; rw [e2]; omega
  | ⟨1, _⟩ => show win0_1.index t (1 : Fin 2) * 32000 + 1 * l.val = g.val; rw [e3, hg]; omega

/-- WHAT POINT `t` WRITES BACK is block `t` of `wide` of the transposed arrays. -/
theorem flushed_eq (c : Dev nD) (t : Fin cfg0.N) :
    (dats m 0 c).flushed 2 t = ((cfg0.win 2).blk t).view.read (Elt Ideal) (wide (V m c main_v0) (V m c main_v1)) := by
  show (cfg0.win 2).cut (grid0.coords t) ((dats m 0 c).after 2 t) = _
  rw [after0_2, out_block (iblk m c 0 t) (iblk m c 1 t)]
  obtain ⟨-, -, -, -, e4, e5⟩ := idx_facts t
  have hN : cfg0.N = 125 := N_0
  have ht : t.val < 125 := hN ▸ t.isLt
  funext y
  have hy0 : (y 0).val < 6 := (y 0).isLt
  have hy1 : (y 1).val < 32000 := (y 1).isLt
  have hg : t.val * 32000 + (y 1).val < 4000000 := by omega
  have hy : y = ix2 (⟨(y 0).val, hy0⟩ : Fin 6) (⟨(y 1).val, hy1⟩ : Fin 32000) := funext fun a => by
    match a with
    | ⟨0, _⟩ => rfl
    | ⟨1, _⟩ => rfl
  have eemb : ((cfg0.win 2).blk t).view.emb y = ix2 (⟨(y 0).val, hy0⟩ : Fin 6) (⟨t.val * 32000 + (y 1).val, hg⟩ : Fin 4000000) :=
    funext fun a => Fin.ext (by
      match a with
      | ⟨0, _⟩ => show win0_2.index t (0 : Fin 2) * 6 + 1 * (y 0).val = (y 0).val; rw [e4]; omega
      | ⟨1, _⟩ => show win0_2.index t (1 : Fin 2) * 32000 + 1 * (y 1).val = t.val * 32000 + (y 1).val; rw [e5]; omega)
  show blockRows (iblk m c 0 t) (iblk m c 1 t) y = wide (V m c main_v0) (V m c main_v1) (((cfg0.win 2).blk t).view.emb y)
  refine (congrArg (blockRows (iblk m c 0 t) (iblk m c 1 t)) hy).trans ?_
  refine Eq.trans ?_ (congrArg (wide (V m c main_v0) (V m c main_v1)) eemb.symm)
  exact blockRows_eq (V m c main_v0) (V m c main_v1) (iblk m c 0 t) (iblk m c 1 t) ⟨(y 0).val, hy0⟩ ⟨(y 1).val, hy1⟩ ⟨t.val * 32000 + (y 1).val, hg⟩
    (fun j => iblk0_at m c t j ⟨(y 1).val, hy1⟩ ⟨t.val * 32000 + (y 1).val, hg⟩ rfl)
    (fun k => iblk1_at m c t k ⟨(y 1).val, hy1⟩ ⟨t.val * 32000 + (y 1).val, hg⟩ rfl)

/-- An index of the array is in point `t`'s block iff each coordinate is in the block's range on its axis. -/
theorem mem_blk (t : Fin cfg0.N) (i : S6x4000000.Idx) :
    i ∈ ((cfg0.win 2).blk t).view.set ↔ ∀ a : Fin 2, win0_2.index t a * S6x32000.size a ≤ (i a).val ∧ (i a).val < win0_2.index t a * S6x32000.size a + S6x32000.size a := by
  show i ∈ ((View.whole main_v2).slice (win0_2.rect t)).set ↔ _
  rw [View.set_slice_whole, Rect.mem_set_unit]
  exact Iff.rfl

/-- Column `g` lies in block `g / 32000`. -/
theorem cover (i : S6x4000000.Idx) : ∃ t : Fin cfg0.N, (cfg0.win 2).flush t = true ∧ i ∈ ((cfg0.win 2).blk t).view.set := by
  have h0 : (i 0).val < 6 := (i 0).isLt
  have h1 : (i 1).val < 4000000 := (i 1).isLt
  have hN : cfg0.N = 125 := N_0
  have hlt : (i 1).val / 32000 < cfg0.N := by rw [hN]; omega
  obtain ⟨-, -, -, -, e4, e5⟩ := idx_facts ⟨(i 1).val / 32000, hlt⟩
  refine ⟨⟨(i 1).val / 32000, hlt⟩, flush0_2 _, ?_⟩
  rw [mem_blk]
  intro a
  match a with
  | ⟨0, _⟩ =>
    show win0_2.index ⟨(i 1).val / 32000, hlt⟩ (0 : Fin 2) * 6 ≤ (i 0).val ∧ (i 0).val < win0_2.index ⟨(i 1).val / 32000, hlt⟩ (0 : Fin 2) * 6 + 6
    rw [e4]; omega
  | ⟨1, _⟩ =>
    show win0_2.index ⟨(i 1).val / 32000, hlt⟩ (1 : Fin 2) * 32000 ≤ (i 1).val ∧ (i 1).val < win0_2.index ⟨(i 1).val / 32000, hlt⟩ (1 : Fin 2) * 32000 + 32000
    rw [e5]
    show (i 1).val / 32000 * 32000 ≤ (i 1).val ∧ (i 1).val < (i 1).val / 32000 * 32000 + 32000
    omega

/-- THE 6 × N ARRAY after the run. -/
theorem final (c : Dev nD) : (dats m 0 c).arrAt 2 cfg0.N = wide (V m c main_v0) (V m c main_v1) :=
  (dats m 0 c).arrAt_eq_of_cover 2 (wide (V m c main_v0) (V m c main_v1)) (fun t _ => flushed_eq m c t) cover

/-! ## The transposes around the region -/

/-- The scales as the region finds them: the argument transposed. -/
theorem V_scales (c : Dev nD) : (V m c main_v0 : S3x4000000.Idx → EReal)
    = transpose S3x4000000 [1, 0] (m ((c : Thread nD τ).loc main_arg0)) transposes_S4000000x3_S3x4000000_1_0 := by
  show StableHlo.after hostOps0 (fun b => m (c, b)) (Proc.devRef .tc main_v0) = _
  after_results

/-- The quaternions as the region finds them: the argument transposed. -/
theorem V_quats (c : Dev nD) : (V m c main_v1 : S4x4000000.Idx → EReal)
    = transpose S4x4000000 [1, 0] (m ((c : Thread nD τ).loc main_arg1)) transposes_S4000000x4_S4x4000000_1_0 := by
  show StableHlo.after hostOps0 (fun b => m (c, b)) (Proc.devRef .tc main_v1) = _
  after_results

/-- The transposed scales at row `j`, column `g`: the argument at row `g`, entry `j`. -/
theorem scales_at (c : Dev nD) (j : Fin 3) (g : Fin 4000000) :
    (V m c main_v0 : S3x4000000.Idx → EReal) (ix2 j g) = (m ((c : Thread nD τ).loc main_arg0) : S4000000x3.Idx → EReal) (ix2 g j) := by
  rw [V_scales]
  exact transpose_apply [1, 0] _ transposes_S4000000x3_S3x4000000_1_0 (ix2 j g) (ix2 g j) (fun b => by
    match b with
    | ⟨0, _⟩ => rfl
    | ⟨1, _⟩ => rfl)

/-- The transposed quaternions at row `k`, column `g`: the argument at row `g`, entry `k`. -/
theorem quats_at (c : Dev nD) (k : Fin 4) (g : Fin 4000000) :
    (V m c main_v1 : S4x4000000.Idx → EReal) (ix2 k g) = (m ((c : Thread nD τ).loc main_arg1) : S4000000x4.Idx → EReal) (ix2 g k) := by
  rw [V_quats]
  exact transpose_apply [1, 0] _ transposes_S4000000x4_S4x4000000_1_0 (ix2 k g) (ix2 g k) (fun b => by
    match b with
    | ⟨0, _⟩ => rfl
    | ⟨1, _⟩ => rfl)

/-- The result buffer after the transpose that follows the region: the region's array transposed. -/
theorem tail_eq (c : Dev nD) : Pipeline.afterTail₀ cfgs (dats m) 0 (V0 m) [hostOps1] c main_v3
    = transpose S4000000x6 [1, 0] (wide (V m c main_v0) (V m c main_v1)) transposes_S6x4000000_S4000000x6_1_0 := by
  unfold Pipeline.afterTail₀
  show StableHlo.after hostOps1 _ (Proc.devRef .tc main_v3) = _
  after_results
  exact congrArg (fun X => transpose S4000000x6 [1, 0] X transposes_S6x4000000_S4000000x6_1_0)
    ((Pipeline.withArrays_arr spec0 launch0.win.arr_inj c _ _ 2).trans (final m c))

/-- THE KERNEL'S RESULT: row `n`, entry `e` is the `e`-th listed covariance entry of Gaussian `n` of the arguments. -/
theorem result_eq (c : Dev nD) :
    transpose S4000000x6 [1, 0] (wide (V m c main_v0) (V m c main_v1)) transposes_S6x4000000_S4000000x6_1_0
      = result (m ((c : Thread nD τ).loc main_arg0)) (m ((c : Thread nD τ).loc main_arg1)) :=
  transposed_wide (m ((c : Thread nD τ).loc main_arg0)) (m ((c : Thread nD τ).loc main_arg1)) (V m c main_v0) (V m c main_v1)
    (scales_at m c) (quats_at m c)

/-- The run, read: the result at `Covariance.result` of the arguments, the arguments unchanged. -/
theorem run : θ_run defs (onTc (τ := τ) (main (F := Ideal))) ⟨m, fun _ => 0, ρ⟩ fun r => ∀ c : Dev nD,
      r.2.mem ((c : Thread nD τ).loc main_v3) = result (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v3 (Pipeline.mem_restRefs_of main_v3 (by decide) (by decide))).trans ((tail_eq m c).trans (result_eq m c)),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.Whole

end
-- ==== Proof.RefRows.lean ====
/-
  The reference program, read at one Gaussian.

  The reference keeps the arrays row-major: Gaussian `n` is row `n` of the scales (3 entries), of the quaternions
  (4 entries) and of the result (6 entries). This module follows the reference's operations at row `n`: the scale of
  each axis, the quaternion divided by its norm, the nine entries of the rotation matrix (computed as nine vectors
  over the Gaussians, joined as nine columns and re-read as 3 × 3 matrices), the matrix with its columns scaled, the
  product of that matrix with its transpose, and the six entries listed out of it. The product is a sum over the
  contracted axis of three terms; the law `Covariance.covGram_eq_cov` turns it into the form over squared scales.
-/
import proofs.«171424_j12360915878348_2_alg».proof.Proof.Gen.ReferenceIdeal.Read
import proofs.«171424_j12360915878348_2_alg».proof.Proof.Spec
import Idealize.ShloMosaic.Lib.ValueIdx
import Idealize.ShloMosaic.Lib.Pipeline.Value
import Idealize.ShloMosaic.Lib.IdealHost
import Idealize.ShloMosaic.PureOps.Ideal.Laws

noncomputable section

namespace Cert.ReferenceIdeal.Rows

open Idealize.ShloMosaic Idealize.ShloMosaic.ValueIdx Cert.ReferenceIdeal Cert.ReferenceIdeal.Read Cert.Covariance

variable (x0 : (⟨S4000000x3, .f32⟩ : BufTy).Contents (Elt Ideal)) (x1 : (⟨S4000000x4, .f32⟩ : BufTy).Contents (Elt Ideal))
variable (n : Fin 4000000)

/-- Row `n` of the raw scales. -/
def rowA : Fin 3 → EReal := fun j => x0 (ix2 n j)
/-- Row `n` of the raw quaternions. -/
def rowQ : Fin 4 → EReal := fun k => x1 (ix2 n k)

/-! ## Joined columns read at a row -/

/-- Nine unit columns joined side by side, read at row `n` and column `k`: the `k`-th column at row `n`. -/
theorem cat9 (u0 u1 u2 u3 u4 u5 u6 u7 u8 : S4000000x1.Idx → EReal)
    (h : Shape.Concatenates (([⟨S4000000x1, u0⟩, ⟨S4000000x1, u1⟩, ⟨S4000000x1, u2⟩, ⟨S4000000x1, u3⟩, ⟨S4000000x1, u4⟩,
      ⟨S4000000x1, u5⟩, ⟨S4000000x1, u6⟩, ⟨S4000000x1, u7⟩, ⟨S4000000x1, u8⟩] : List ((s : Shape) × (s.Idx → EReal))).map (·.1)) S4000000x9 1)
    (jj : S4000000x9.Idx) (k : Nat) (hk : k < 9) (w : S4000000x1.Idx → EReal)
    (hw : [u0, u1, u2, u3, u4, u5, u6, u7, u8][k]? = some w) (h0 : (jj 0).val = n.val) (h1 : (jj 1).val = k) :
    concatenate S4000000x9 1 [⟨S4000000x1, u0⟩, ⟨S4000000x1, u1⟩, ⟨S4000000x1, u2⟩, ⟨S4000000x1, u3⟩, ⟨S4000000x1, u4⟩,
      ⟨S4000000x1, u5⟩, ⟨S4000000x1, u6⟩, ⟨S4000000x1, u7⟩, ⟨S4000000x1, u8⟩] h jj = w (ix2 n 0) := by
  have hk9 : k = 0 ∨ k = 1 ∨ k = 2 ∨ k = 3 ∨ k = 4 ∨ k = 5 ∨ k = 6 ∨ k = 7 ∨ k = 8 := by omega
  refine concatenate_apply_piece 1 _ h jj k hk S4000000x1 w ?_ rfl k ?_ (ix2 n 0) ?_ ?_
  · rcases hk9 with rfl | rfl | rfl | rfl | rfl | rfl | rfl | rfl | rfl <;> (obtain rfl := Option.some.inj hw; rfl)
  · rcases hk9 with rfl | rfl | rfl | rfl | rfl | rfl | rfl | rfl | rfl <;> rfl
  · intro b hb
    match b with
    | ⟨0, _⟩ => exact h0.symm
    | ⟨1, _⟩ => exact absurd rfl hb
  · show k + 0 = (jj 1).val
    rw [h1]; rfl

/-- Six unit columns joined side by side, read at row `n` and column `k`. -/
theorem cat6 (u0 u1 u2 u3 u4 u5 : S4000000x1.Idx → EReal)
    (h : Shape.Concatenates (([⟨S4000000x1, u0⟩, ⟨S4000000x1, u1⟩, ⟨S4000000x1, u2⟩, ⟨S4000000x1, u3⟩, ⟨S4000000x1, u4⟩,
      ⟨S4000000x1, u5⟩] : List ((s : Shape) × (s.Idx → EReal))).map (·.1)) S4000000x6 1)
    (jj : S4000000x6.Idx) (k : Nat) (hk : k < 6) (w : S4000000x1.Idx → EReal)
    (hw : [u0, u1, u2, u3, u4, u5][k]? = some w) (h0 : (jj 0).val = n.val) (h1 : (jj 1).val = k) :
    concatenate S4000000x6 1 [⟨S4000000x1, u0⟩, ⟨S4000000x1, u1⟩, ⟨S4000000x1, u2⟩, ⟨S4000000x1, u3⟩, ⟨S4000000x1, u4⟩,
      ⟨S4000000x1, u5⟩] h jj = w (ix2 n 0) := by
  have hk6 : k = 0 ∨ k = 1 ∨ k = 2 ∨ k = 3 ∨ k = 4 ∨ k = 5 := by omega
  refine concatenate_apply_piece 1 _ h jj k hk S4000000x1 w ?_ rfl k ?_ (ix2 n 0) ?_ ?_
  · rcases hk6 with rfl | rfl | rfl | rfl | rfl | rfl <;> (obtain rfl := Option.some.inj hw; rfl)
  · rcases hk6 with rfl | rfl | rfl | rfl | rfl | rfl <;> rfl
  · intro b hb
    match b with
    | ⟨0, _⟩ => exact h0.symm
    | ⟨1, _⟩ => exact absurd rfl hb
  · show k + 0 = (jj 1).val
    rw [h1]; rfl

/-! ## The scales -/

/-- The reference's scale of axis `j` of Gaussian `n`: its sigmoid is spelt `1 / (1 + e^(-a))`, which is the logistic
    function. -/
theorem scale_at (j : Fin 3) : val_main_v11 (F := Ideal) x0 (ix2 n j) = axisScale (rowA x0 n j) := by
  rw [val_main_v11_apply, val_main_v10_apply, val_main_cst_3_apply, val_main_v9_apply, val_main_v8_apply, val_main_cst_2_apply,
    val_main_v7_apply, val_main_v6_apply, val_main_cst_1_apply, val_main_v5_apply, val_main_v4_apply, val_main_cst_0_apply,
    val_main_v3_apply, val_main_v2_apply, val_main_cst_apply, val_main_v1_apply, val_main_v0_apply]
  show cOne * (Ideal.div cOne (cOne + Ideal.exp (-(x0 (ix2 n j)))) * cSpan + cMin) = axisScale (x0 (ix2 n j))
  unfold axisScale Ideal.logistic
  rw [show cOne = (1 : EReal) from Ideal.ofBits_one_f32]

/-! ## The unit quaternion -/

/-- The norm of quaternion `n`. -/
theorem norm_at : val_main_v12 (F := Ideal) x1 (ix2 n 0) = quatNorm (rowQ x1 n) := by
  rw [val_main_v12_apply, val_main_call0_v2_apply, val_main_call0_v1_apply, val_main_call0_cst_apply]
  show Ideal.sqrt (Ideal.ofBits .f32 0x00000000#32 + ∑ k : Fin 4, val_main_call0_v0 (F := Ideal) x1 (idx_main_call0_v1 (idx_main_call0_v2 (ix2 n 0)) k)) = _
  rw [Ideal.ofBits_zero_f32, zero_add]
  unfold quatNorm
  refine congrArg Ideal.sqrt (Finset.sum_congr rfl fun k _ => ?_)
  rw [val_main_call0_v0_apply]
  have e : idx_main_call0_v1 (idx_main_call0_v2 (ix2 n (0 : Fin 1))) k = ix2 n k := funext fun a => Fin.ext (by
    match a with
    | ⟨0, _⟩ => rfl
    | ⟨1, _⟩ => rfl)
  rw [e]
  rfl

/-- Component `k` of quaternion `n` divided by the norm. -/
theorem unit_at (k : Fin 4) : val_main_v14 (F := Ideal) x1 (ix2 n k) = quatUnit (rowQ x1 n) k := by
  rw [val_main_v14_apply, val_main_v13_apply]
  have e : idx_main_v13 (ix2 n k) = ix2 n (0 : Fin 1) := funext fun a => Fin.ext (by
    match a with
    | ⟨0, _⟩ => rfl
    | ⟨1, _⟩ => rfl)
  rw [e, norm_at]
  rfl

/-- The four component vectors, each at Gaussian `n`. -/
theorem q0_at : val_main_v16 (F := Ideal) x1 (ix1 n) = quatUnit (rowQ x1 n) 0 := by
  rw [val_main_v16_apply, val_main_v15_apply, ← unit_at]
  refine congrArg (val_main_v14 (F := Ideal) x1) (funext fun a => Fin.ext ?_)
  match a with
  | ⟨0, _⟩ => exact Nat.div_one _
  | ⟨1, _⟩ => rfl
theorem q1_at : val_main_v18 (F := Ideal) x1 (ix1 n) = quatUnit (rowQ x1 n) 1 := by
  rw [val_main_v18_apply, val_main_v17_apply, ← unit_at]
  refine congrArg (val_main_v14 (F := Ideal) x1) (funext fun a => Fin.ext ?_)
  match a with
  | ⟨0, _⟩ => exact Nat.div_one _
  | ⟨1, _⟩ => rfl
theorem q2_at : val_main_v20 (F := Ideal) x1 (ix1 n) = quatUnit (rowQ x1 n) 2 := by
  rw [val_main_v20_apply, val_main_v19_apply, ← unit_at]
  refine congrArg (val_main_v14 (F := Ideal) x1) (funext fun a => Fin.ext ?_)
  match a with
  | ⟨0, _⟩ => exact Nat.div_one _
  | ⟨1, _⟩ => rfl
theorem q3_at : val_main_v22 (F := Ideal) x1 (ix1 n) = quatUnit (rowQ x1 n) 3 := by
  rw [val_main_v22_apply, val_main_v21_apply, ← unit_at]
  refine congrArg (val_main_v14 (F := Ideal) x1) (funext fun a => Fin.ext ?_)
  match a with
  | ⟨0, _⟩ => exact Nat.div_one _
  | ⟨1, _⟩ => rfl

/-! ## The nine entries of the rotation matrix, as vectors over the Gaussians -/

/-- The unit quaternion of Gaussian `n`. -/
abbrev U : Fin 4 → EReal := quatUnit (rowQ x1 n)

theorem R00_at : val_main_v29 (F := Ideal) x1 (ix1 n) = r00 (U x1 n) := by
  rw [val_main_v29_apply, val_main_v28_apply, val_main_cst_5_apply, val_main_v27_apply, val_main_v26_apply, val_main_cst_4_apply,
    val_main_v25_apply, val_main_v23_apply, val_main_v24_apply, q2_at, q3_at]
  rfl
theorem R01_at : val_main_v34 (F := Ideal) x1 (ix1 n) = r01 (U x1 n) := by
  rw [val_main_v34_apply, val_main_v33_apply, val_main_cst_6_apply, val_main_v32_apply, val_main_v30_apply, val_main_v31_apply,
    q0_at, q1_at, q2_at, q3_at]
  rfl
theorem R02_at : val_main_v39 (F := Ideal) x1 (ix1 n) = r02 (U x1 n) := by
  rw [val_main_v39_apply, val_main_v38_apply, val_main_cst_7_apply, val_main_v37_apply, val_main_v35_apply, val_main_v36_apply,
    q0_at, q1_at, q2_at, q3_at]
  rfl
theorem R10_at : val_main_v44 (F := Ideal) x1 (ix1 n) = r10 (U x1 n) := by
  rw [val_main_v44_apply, val_main_v43_apply, val_main_cst_8_apply, val_main_v42_apply, val_main_v40_apply, val_main_v41_apply,
    q0_at, q1_at, q2_at, q3_at]
  rfl
theorem R11_at : val_main_v51 (F := Ideal) x1 (ix1 n) = r11 (U x1 n) := by
  rw [val_main_v51_apply, val_main_v50_apply, val_main_cst_10_apply, val_main_v49_apply, val_main_v48_apply, val_main_cst_9_apply,
    val_main_v47_apply, val_main_v45_apply, val_main_v46_apply, q1_at, q3_at]
  rfl
theorem R12_at : val_main_v56 (F := Ideal) x1 (ix1 n) = r12 (U x1 n) := by
  rw [val_main_v56_apply, val_main_v55_apply, val_main_cst_11_apply, val_main_v54_apply, val_main_v52_apply, val_main_v53_apply,
    q0_at, q1_at, q2_at, q3_at]
  rfl
theorem R20_at : val_main_v61 (F := Ideal) x1 (ix1 n) = r20 (U x1 n) := by
  rw [val_main_v61_apply, val_main_v60_apply, val_main_cst_12_apply, val_main_v59_apply, val_main_v57_apply, val_main_v58_apply,
    q0_at, q1_at, q2_at, q3_at]
  rfl
theorem R21_at : val_main_v66 (F := Ideal) x1 (ix1 n) = r21 (U x1 n) := by
  rw [val_main_v66_apply, val_main_v65_apply, val_main_cst_13_apply, val_main_v64_apply, val_main_v62_apply, val_main_v63_apply,
    q0_at, q1_at, q2_at, q3_at]
  rfl
theorem R22_at : val_main_v73 (F := Ideal) x1 (ix1 n) = r22 (U x1 n) := by
  rw [val_main_v73_apply, val_main_v72_apply, val_main_cst_15_apply, val_main_v71_apply, val_main_v70_apply, val_main_cst_14_apply,
    val_main_v69_apply, val_main_v67_apply, val_main_v68_apply, q1_at, q2_at]
  rfl

/-! ## The nine vectors joined as columns and re-read as 3 × 3 matrices -/

/-- Where entry (i, j) of the matrix of Gaussian `n` sits among the joined columns: row `n`, column `3 i + j`. -/
theorem idx84_row (i j : Fin 3) : (idx_main_v84 (ix3 n i j) 0).val = n.val := by
  have hi : i.val < 3 := i.isLt
  have hj : j.val < 3 := j.isLt
  show ((n.val * 3 + i.val) * 3 + j.val) / 9 = n.val
  omega
theorem idx84_col (i j : Fin 3) : (idx_main_v84 (ix3 n i j) 1).val = 3 * i.val + j.val := by
  have hi : i.val < 3 := i.isLt
  have hj : j.val < 3 := j.isLt
  show ((n.val * 3 + i.val) * 3 + j.val) % 9 = 3 * i.val + j.val
  omega

/-- A vector over the Gaussians viewed as a unit column is read at row `n` at `n`. -/
theorem col_at : (fun a => match a with | ⟨0, _⟩ => ⟨((ix2 n (0 : Fin 1) : S4000000x1.Idx) 0).val, ((ix2 n (0 : Fin 1) : S4000000x1.Idx) 0).isLt⟩ : S4000000.Idx) = ix1 n :=
  funext fun a => Fin.ext (by
    match a with
    | ⟨0, _⟩ => rfl)

/-- Entry (i, j) of the matrix of Gaussian `n`. -/
theorem R_at (i j : Fin 3) : val_main_v84 (F := Ideal) x1 (ix3 n i j) = rot (U x1 n) i j := by
  rw [val_main_v84_apply]
  unfold val_main_v83
  fin_cases i <;> fin_cases j
  · refine (cat9 n _ _ _ _ _ _ _ _ _ _ _ 0 (by decide) (val_main_v74 (F := Ideal) x1) rfl (idx84_row n 0 0) (idx84_col n 0 0)).trans ?_
    rw [val_main_v74_apply]
    exact (congrArg (val_main_v29 (F := Ideal) x1) (col_at n)).trans (R00_at x1 n)
  · refine (cat9 n _ _ _ _ _ _ _ _ _ _ _ 1 (by decide) (val_main_v75 (F := Ideal) x1) rfl (idx84_row n 0 1) (idx84_col n 0 1)).trans ?_
    rw [val_main_v75_apply]
    exact (congrArg (val_main_v34 (F := Ideal) x1) (col_at n)).trans (R01_at x1 n)
  · refine (cat9 n _ _ _ _ _ _ _ _ _ _ _ 2 (by decide) (val_main_v76 (F := Ideal) x1) rfl (idx84_row n 0 2) (idx84_col n 0 2)).trans ?_
    rw [val_main_v76_apply]
    exact (congrArg (val_main_v39 (F := Ideal) x1) (col_at n)).trans (R02_at x1 n)
  · refine (cat9 n _ _ _ _ _ _ _ _ _ _ _ 3 (by decide) (val_main_v77 (F := Ideal) x1) rfl (idx84_row n 1 0) (idx84_col n 1 0)).trans ?_
    rw [val_main_v77_apply]
    exact (congrArg (val_main_v44 (F := Ideal) x1) (col_at n)).trans (R10_at x1 n)
  · refine (cat9 n _ _ _ _ _ _ _ _ _ _ _ 4 (by decide) (val_main_v78 (F := Ideal) x1) rfl (idx84_row n 1 1) (idx84_col n 1 1)).trans ?_
    rw [val_main_v78_apply]
    exact (congrArg (val_main_v51 (F := Ideal) x1) (col_at n)).trans (R11_at x1 n)
  · refine (cat9 n _ _ _ _ _ _ _ _ _ _ _ 5 (by decide) (val_main_v79 (F := Ideal) x1) rfl (idx84_row n 1 2) (idx84_col n 1 2)).trans ?_
    rw [val_main_v79_apply]
    exact (congrArg (val_main_v56 (F := Ideal) x1) (col_at n)).trans (R12_at x1 n)
  · refine (cat9 n _ _ _ _ _ _ _ _ _ _ _ 6 (by decide) (val_main_v80 (F := Ideal) x1) rfl (idx84_row n 2 0) (idx84_col n 2 0)).trans ?_
    rw [val_main_v80_apply]
    exact (congrArg (val_main_v61 (F := Ideal) x1) (col_at n)).trans (R20_at x1 n)
  · refine (cat9 n _ _ _ _ _ _ _ _ _ _ _ 7 (by decide) (val_main_v81 (F := Ideal) x1) rfl (idx84_row n 2 1) (idx84_col n 2 1)).trans ?_
    rw [val_main_v81_apply]
    exact (congrArg (val_main_v66 (F := Ideal) x1) (col_at n)).trans (R21_at x1 n)
  · refine (cat9 n _ _ _ _ _ _ _ _ _ _ _ 8 (by decide) (val_main_v82 (F := Ideal) x1) rfl (idx84_row n 2 2) (idx84_col n 2 2)).trans ?_
    rw [val_main_v82_apply]
    exact (congrArg (val_main_v73 (F := Ideal) x1) (col_at n)).trans (R22_at x1 n)

/-! ## The matrix with its columns scaled, and its product with its transpose -/

/-- The scales of Gaussian `n`. -/
abbrev S : Fin 3 → EReal := fun j => axisScale (rowA x0 n j)

/-- The scales broadcast along the matrix's rows: entry (i, j) is the scale of axis `j`. -/
theorem sB_at (i j : Fin 3) : val_main_v86 (F := Ideal) x0 (ix3 n i j) = S x0 n j := by
  rw [val_main_v86_apply, val_main_v85_apply]
  have e : idx_main_v85 (idx_main_v86 (ix3 n i j)) = ix2 n j := funext fun a => Fin.ext (by
    match a with
    | ⟨0, _⟩ => rfl
    | ⟨1, _⟩ => rfl)
  rw [e, scale_at]

/-- Entry (i, j) of the scaled matrix. -/
theorem L_at (i j : Fin 3) : val_main_v87 (F := Ideal) x0 x1 (ix3 n i j) = rot (U x1 n) i j * S x0 n j := by
  rw [val_main_v87_apply, R_at, sB_at]
  rfl

/-- Entry (i, k) of the product of the scaled matrix with its transpose. -/
theorem gram_at (i k : Fin 3) : val_main_v88 (F := Ideal) x0 x1 (ix3 n i k) = covGram (S x0 n) (rot (U x1 n)) i k := by
  rw [val_main_v88_apply]
  unfold covGram
  refine Finset.sum_congr rfl fun j _ => ?_
  have el : lidx_main_v88 (ix3 n i k) j = ix3 n i j := funext fun a => Fin.ext (by
    match a with
    | ⟨0, _⟩ => rfl
    | ⟨1, _⟩ => rfl
    | ⟨2, _⟩ => rfl)
  have er : ridx_main_v88 (ix3 n i k) j = ix3 n k j := funext fun a => Fin.ext (by
    match a with
    | ⟨0, _⟩ => rfl
    | ⟨1, _⟩ => rfl
    | ⟨2, _⟩ => rfl)
  rw [el, er, L_at, L_at]

/-! ## The six listed entries -/

/-- An entry of the product read at an index whose coordinates are `n`, `i`, `k`, in the form over squared scales. -/
theorem listed (jj : S4000000x3x3.Idx) (i k : Fin 3) (h0 : (jj 0).val = n.val / 1) (h1 : (jj 1).val = i.val) (h2 : (jj 2).val = k.val) :
    val_main_v88 (F := Ideal) x0 x1 jj = cov (S x0 n) (rot (U x1 n)) i k := by
  have e : jj = ix3 n i k := funext fun a => Fin.ext (by
    match a with
    | ⟨0, _⟩ => exact h0.trans (Nat.div_one _)
    | ⟨1, _⟩ => exact h1
    | ⟨2, _⟩ => exact h2)
  rw [e, gram_at, covGram_eq_cov]

/-- THE REFERENCE AT A ROW: entry `e` of row `n` of its result is the `e`-th listed covariance entry of Gaussian `n`. -/
theorem out_at (e : Fin 6) : val_main_v107 (F := Ideal) x0 x1 (ix2 n e) = rowEntry x0 x1 n e := by
  unfold val_main_v107
  fin_cases e
  · refine (cat6 n _ _ _ _ _ _ _ _ 0 (by decide) (val_main_v101 (F := Ideal) x0 x1) rfl rfl rfl).trans ?_
    rw [val_main_v101_apply, val_main_v90_apply, val_main_v89_apply]
    exact listed x0 x1 n _ 0 0 rfl rfl rfl
  · refine (cat6 n _ _ _ _ _ _ _ _ 1 (by decide) (val_main_v102 (F := Ideal) x0 x1) rfl rfl rfl).trans ?_
    rw [val_main_v102_apply, val_main_v92_apply, val_main_v91_apply]
    exact listed x0 x1 n _ 0 1 rfl rfl rfl
  · refine (cat6 n _ _ _ _ _ _ _ _ 2 (by decide) (val_main_v103 (F := Ideal) x0 x1) rfl rfl rfl).trans ?_
    rw [val_main_v103_apply, val_main_v94_apply, val_main_v93_apply]
    exact listed x0 x1 n _ 0 2 rfl rfl rfl
  · refine (cat6 n _ _ _ _ _ _ _ _ 3 (by decide) (val_main_v104 (F := Ideal) x0 x1) rfl rfl rfl).trans ?_
    rw [val_main_v104_apply, val_main_v96_apply, val_main_v95_apply]
    exact listed x0 x1 n _ 1 1 rfl rfl rfl
  · refine (cat6 n _ _ _ _ _ _ _ _ 4 (by decide) (val_main_v105 (F := Ideal) x0 x1) rfl rfl rfl).trans ?_
    rw [val_main_v105_apply, val_main_v98_apply, val_main_v97_apply]
    exact listed x0 x1 n _ 1 2 rfl rfl rfl
  · refine (cat6 n _ _ _ _ _ _ _ _ 5 (by decide) (val_main_v106 (F := Ideal) x0 x1) rfl rfl rfl).trans ?_
    rw [val_main_v106_apply, val_main_v100_apply, val_main_v99_apply]
    exact listed x0 x1 n _ 2 2 rfl rfl rfl

/-- THE REFERENCE'S RESULT as one function of its two arguments. -/
theorem value_eq : val_main_v107 (F := Ideal) x0 x1 = result x0 x1 :=
  eq_result x0 x1 _ (fun n e => out_at x0 x1 n e)

end Cert.ReferenceIdeal.Rows

end
-- ==== Proof.lean ====
/-
  The covariance matrices of four million Gaussians, `C = (R·diag s)·(R·diag s)ᵀ` with `R` the rotation of the
  normalised quaternion and `s` the sigmoid-mapped scales, listed by their upper triangles: a kernel working on
  transposed 32000-lane blocks against a row-major reference, equal over the extended reals.

  * The three frames: the two kernel programs' are their launch proofs; the reference's is its run with the result
    forgotten.
  * The idealized kernel is the kernel's own text read over the extended reals: nothing was rewritten, so there is
    nothing to preserve.
  * Both idealized programs end with the result array at `Covariance.result` of the two argument arrays: row `n`,
    entry `e` is the `e`-th listed entry of the covariance of Gaussian `n`. The kernel computes each entry as
    `Σ_j (R i j · R k j)·(s j · s j)`, lane by lane inside a block (Proof/KernelRows.lean, Proof/KernelValue.lean);
    the reference as the contraction `Σ_j (R i j · s j)·(R k j · s j)` (Proof/RefRows.lean); the two agree by
    commutativity and associativity of the product (Proof/Spec.lean), which need no finiteness.
-/
import proofs.«171424_j12360915878348_2_alg».proof.Defs
import proofs.«171424_j12360915878348_2_alg».proof.Proof.Gen.Kernel
import proofs.«171424_j12360915878348_2_alg».proof.Proof.Gen.Kernel.Frame
import proofs.«171424_j12360915878348_2_alg».proof.Proof.Gen.KernelIdeal
import proofs.«171424_j12360915878348_2_alg».proof.Proof.Gen.KernelIdeal.Frame
import proofs.«171424_j12360915878348_2_alg».proof.Proof.Gen.ReferenceIdeal
import proofs.«171424_j12360915878348_2_alg».proof.Proof.Gen.ReferenceIdeal.Run
import proofs.«171424_j12360915878348_2_alg».proof.Proof.Gen.ReferenceIdeal.Read
import proofs.«171424_j12360915878348_2_alg».proof.Proof.Gen.Pre_finite_inputs
import proofs.«171424_j12360915878348_2_alg».proof.Proof.Spec
import proofs.«171424_j12360915878348_2_alg».proof.Proof.KernelValue
import proofs.«171424_j12360915878348_2_alg».proof.Proof.RefRows
import Idealize.ShloMosaic.Adequacy
import Idealize.ShloMosaic.Init

noncomputable section

namespace Cert.Proof

open Idealize.ShloMosaic Idealize.ShloMosaic.TcCoe Idealize.SL.Sem

/-- The kernel as printed runs and keeps its arguments. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and keeps its arguments: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten on the way to the extended reals. -/
theorem preserves : Cert.preserves_Kernel_KernelIdeal := trivial

/-- Both programs end at the same function of arguments that agree. -/
theorem algebraic : Cert.algebraic_KernelIdeal_ReferenceIdeal := by
  intro m ρ m' ρ' _ hagree
  refine ⟨fun c => Cert.Covariance.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨?_, (h c).2⟩) (Cert.ReferenceIdeal.Value.run (F := Ideal) m' ρ')
  rw [(h c).1, Cert.ReferenceIdeal.Read.val_main_v107_eq, Cert.ReferenceIdeal.Rows.value_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
